-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : IVec S1600000 32) (main_arg2 : IVec S1600000 32) (main_arg3 : FVec F S1600000 .f32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S10000x128 : Shape := ⟨2, ![10000, 128]⟩

abbrev nBuf : Space → Nat
  | .hbm => 25
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S1600000x1, .f32⟩
  | .hbm, ⟨15, _⟩ => ⟨S1600000x128, .f32⟩
  | .hbm, ⟨16, _⟩ => ⟨S1600000x128, .f32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S100000x128, .bf16⟩
  | .hbm, ⟨22, _⟩ => ⟨S128x128, .f32⟩
  | .hbm, ⟨23, _⟩ => ⟨S128x128, .bf16⟩
  | .hbm, ⟨24, _⟩ => ⟨S100000x128, .f32⟩
  | .local _ .vmem, ⟨0, _⟩ => ⟨S10000x128, .bf16⟩
  | .local _ .vmem, ⟨1, _⟩ => ⟨S10000x128, .bf16⟩
  | .local _ .vmem, ⟨2, _⟩ => ⟨S128x128, .bf16⟩
  | .local _ .vmem, ⟨3, _⟩ => ⟨S10000x128, .f32⟩
  | .local _ .vmem, ⟨4, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bitsLt_bf16_f32 : FTy.bits .bf16 < FTy.bits .f32
  transposes_S128x128_S128x128_1_0 : S128x128.Transposes [1, 0] S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v13) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 22
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S1600000x1, .f32⟩
  | .hbm, ⟨15, _⟩ => ⟨S1600000x128, .f32⟩
  | .hbm, ⟨16, _⟩ => ⟨S1600000x128, .f32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_1_0_0_n_n_wf : DotDims.WF S100000x128 S128x128 S100000x128 [1] [1] [0] [0] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_1_0_0_n_n : DotDims S100000x128 S128x128 S100000x128 where
  lhsContracting := [1]
  rhsContracting := [1]
  lhsNonContracting := [0]
  rhsNonContracting := [0]
  lhsBatch := []
  rhsBatch := []
  wf := dot_S100000x128_S128x128_S100000x128_1_1_0_0_n_n_wf

class Facts : Prop extends Facts₀ where

variable [Facts]
-- ==== Proof.Spec.lean ====
/-
  The dense layer both programs end with, written once as a function of two arrays.

  Both programs first aggregate neighbour features into an array `y` of 100000 rows (nodes) by 128
  columns (features), and then apply a linear layer with a 128 × 128 weight array `w` whose ROWS are the
  output features: the entry at node `n` and output feature `o` is
      ∑ k, y[n, k] · w[o, k]
  that is, `y · wᵀ`.  Over the extended reals this is a plain finite sum of products; nothing here asks
  whether the entries are finite, because the two programs are compared term by term inside the sum and no
  law beyond reindexing is used.
-/
import Idealize.ShloMosaic.PureOps.Ideal
import Idealize.ShloMosaic.Lib.ValueIdx

noncomputable section

namespace Cert.GraphLinear

open Idealize.ShloMosaic Idealize.ShloMosaic.ValueIdx

/-- The shape of the aggregated features and of the result: one row per node, 128 features. -/
abbrev Rows : Shape := ⟨2, ![100000, 128]⟩
/-- The shape of the weights: one row per output feature. -/
abbrev Square : Shape := ⟨2, ![128, 128]⟩

/-- `y · wᵀ`, entry by entry: at node `i 0` and output feature `i 1`, the sum over the shared feature axis
    of `y` at that node times `w` at that output feature. -/
def timesTranspose (y : Rows.Idx → EReal) (w : Square.Idx → EReal) : Rows.Idx → EReal :=
  fun i => ∑ k : Fin 128, y (ix2 (n0 := 100000) (n1 := 128) (i 0) k) * w (ix2 (n0 := 128) (n1 := 128) (i 1) k)

/-- The same at an index given by its two coordinates. -/
theorem timesTranspose_ix2 (y : Rows.Idx → EReal) (w : Square.Idx → EReal) (n : Fin 100000) (o : Fin 128) :
    timesTranspose y w (ix2 n o) = ∑ k : Fin 128, y (ix2 n k) * w (ix2 o k) := rfl

end Cert.GraphLinear

end
-- ==== Proof.BlockProduct.lean ====
/-
  One block of the kernel's matrix product, read at an index.

  At a grid point the kernel body loads a block `a` of 10000 rows of the (row-major) left operand and the whole
  128 × 128 right operand `b`, and stores their matrix product into a zero accumulator.  The matrix unit contracts
  the second axis of `a` with the FIRST axis of `b`, so the entry at row `p`, column `q` of the stored block is
      ∑ k, a[p, k] · b[k, q].
  The two same-shape casts around the loads are the identity, the zero accumulator adds nothing, and the
  contraction index (a one-axis index) is re-indexed by its single coordinate.
-/
import proofs.«139990_j36799279793050_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.BlockProduct

open Cert.KernelIdeal Cert.KernelIdeal.Gen Idealize.ShloMosaic Idealize.ShloMosaic.ValueIdx

/-- The left operand's index at output index `j` and contraction position `k`: row `j 0` … -/
theorem lhs_row (j : S10000x128.Idx) (k : dot_S10000x128_S128x128_S10000x128_1_0_0_1_n_n.contr.Idx) :
    (dot_S10000x128_S128x128_S10000x128_1_0_0_1_n_n.lhsIdx j k 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and column the contraction position. -/
theorem lhs_col (j : S10000x128.Idx) (k : dot_S10000x128_S128x128_S10000x128_1_0_0_1_n_n.contr.Idx) :
    (dot_S10000x128_S128x128_S10000x128_1_0_0_1_n_n.lhsIdx j k 1).val = (k ⟨0, by decide⟩).val :=
  dot_S10000x128_S128x128_S10000x128_1_0_0_1_n_n.lhsIdx_val_of_single rfl j k
/-- The right operand's index: row the contraction position … -/
theorem rhs_row (j : S10000x128.Idx) (k : dot_S10000x128_S128x128_S10000x128_1_0_0_1_n_n.contr.Idx) :
    (dot_S10000x128_S128x128_S10000x128_1_0_0_1_n_n.rhsIdx j k 0).val = (k ⟨0, by decide⟩).val :=
  dot_S10000x128_S128x128_S10000x128_1_0_0_1_n_n.rhsIdx_val_of_single rfl j k
/-- … and column `j 1`. -/
theorem rhs_col (j : S10000x128.Idx) (k : dot_S10000x128_S128x128_S10000x128_1_0_0_1_n_n.contr.Idx) :
    (dot_S10000x128_S128x128_S10000x128_1_0_0_1_n_n.rhsIdx j k 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The stored block at row `p`, column `q`: the sum over `k` of the left block at `(p, k)` times the right
    operand at `(k, q)`. -/
theorem payload_apply (a : FVec Ideal S10000x128 .bf16) (b : FVec Ideal S128x128 .bf16) (p : Fin 10000) (q : Fin 128) :
    k0_pay1 (F := Ideal) a b (ix2 p q) = ∑ k : Fin 128, a (ix2 p k) * b (ix2 k q) := by
  unfold k0_pay1
  rw [shapeCast_self, shapeCast_self]
  refine (Ideal.matmul_constant_zero_apply (φ₁ := .bf16) (φ₂ := .bf16) dot_S10000x128_S128x128_S10000x128_1_0_0_1_n_n none a b (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun x => Fin.ext (by
    match x with
    | ⟨0, _⟩ => exact lhs_row _ _
    | ⟨1, _⟩ => exact (lhs_col _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun x => Fin.ext (by
    match x with
    | ⟨0, _⟩ => exact (rhs_row _ _).trans hk
    | ⟨1, _⟩ => exact rhs_col _ _)
  rw [el, er]

end Cert.KernelIdeal.BlockProduct

end
-- ==== Proof.RegionArrays.lean ====
/-
  What the kernel's one region finds in its two input arrays.

  Before the region the kernel's program runs, on the host, the same chain of operations as the reference:
  negative column indices are wrapped by the node count, the rows of the feature array at those indices are
  gathered, each gathered row is scaled by its edge's value, and the scaled rows are added into a zero array at
  the edges' row indices.  Call the array this leaves the AGGREGATED FEATURES.  It is one term of the four
  argument arrays it reads, the same term in both programs, and it is never opened here: it is named by the
  reference's stage for that value so that both sides of the comparison carry literally the same term.

  The region's left operand is the aggregated features after a change of float format, which over the extended
  reals is the identity.  Its right operand is the weight array transposed (again after a change of format): at
  row `k`, column `q` it holds the weights at row `q`, column `k`.
-/
import proofs.«139990_j36799279793050_2_alg».proof.Proof.Gen.KernelIdeal.Frame
import proofs.«139990_j36799279793050_2_alg».proof.Proof.Gen.ReferenceIdeal.Read
import Idealize.ShloMosaic.Lib.StableHlo.Run
import Idealize.ShloMosaic.Lib.ValueLayout

noncomputable section

namespace Cert.KernelIdeal.RegionArrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- Over the extended reals a change of float format is the identity, array-wide. -/
theorem truncf_id {s : Shape} {φ : FTy} (ψ : FTy) (x : FVec Ideal s φ) (h : ψ.bits < φ.bits) : truncf ψ x h = x := rfl

/-- The aggregated features on core `c`, as a term of the launch contents of the four arrays the host chain reads. -/
def aggregated (c : Dev nD) : S100000x128.Idx → EReal :=
  Cert.ReferenceIdeal.Read.val_main_v12 (F := Ideal)
    (m ((c : Thread nD τ).loc main_arg0)) (m ((c : Thread nD τ).loc main_arg1))
    (m ((c : Thread nD τ).loc main_arg2)) (m ((c : Thread nD τ).loc main_arg3))

/-- The region's left operand is the aggregated features.  The change of format is removed first, and the
    reference's names for the chain's stages are spelt out, so that the two sides are compared operation by
    operation, operand by operand, and no operation is ever opened. -/
theorem found_features (c : Dev nD) : (V m c main_v13 : S100000x128.Idx → EReal) = aggregated m c := by
  dsimp only [V, hostOps0]
  after_results
  refine (truncf_id (φ := .f32) .bf16 _ bitsLt_bf16_f32).trans ?_
  unfold aggregated
  simp only [Cert.ReferenceIdeal.Read.val_main_v12, Cert.ReferenceIdeal.Read.val_main_v11, Cert.ReferenceIdeal.Read.val_main_v10,
    Cert.ReferenceIdeal.Read.val_main_cst, Cert.ReferenceIdeal.Read.val_main_v9, Cert.ReferenceIdeal.Read.val_main_v8,
    Cert.ReferenceIdeal.Read.val_main_v7, Cert.ReferenceIdeal.Read.val_main_v6, Cert.ReferenceIdeal.Read.val_main_v5,
    Cert.ReferenceIdeal.Read.val_main_v4, Cert.ReferenceIdeal.Read.val_main_v3, Cert.ReferenceIdeal.Read.val_main_v2,
    Cert.ReferenceIdeal.Read.val_main_c_0, Cert.ReferenceIdeal.Read.val_main_v1, Cert.ReferenceIdeal.Read.val_main_v0,
    Cert.ReferenceIdeal.Read.val_main_c]
  rfl

/-- The region's right operand is the weight array transposed. -/
theorem found_weights (c : Dev nD) :
    (V m c main_v15 : S128x128.Idx → EReal)
      = transpose S128x128 [1, 0] (m ((c : Thread nD τ).loc main_arg4) : S128x128.Idx → EReal) transposes_S128x128_S128x128_1_0 := by
  dsimp only [V, hostOps0]
  after_results
  rfl

/-- At row `k`, column `q` the right operand holds the weights at row `q`, column `k`. -/
theorem found_weights_apply (c : Dev nD) (k q : Fin 128) :
    (V m c main_v15 : S128x128.Idx → EReal) (ix2 k q)
      = (m ((c : Thread nD τ).loc main_arg4) : S128x128.Idx → EReal) (ix2 q k) := by
  rw [found_weights]
  exact transpose_ix2_apply _ _ k q

end Cert.KernelIdeal.RegionArrays

end
-- ==== Proof.WholeArray.lean ====
/-
  The kernel's result array, as one function of the argument arrays.

  The grid has ten points.  Point `t` stages rows `10000·t … 10000·t + 9999` of the aggregated features and the whole
  transposed weight array, multiplies them, and writes the product back to the same rows of the result.  So what point
  `t` writes back is exactly block `t` of `y · wᵀ` (`y` the aggregated features, `w` the weights): row `p` of the block is
  node `10000·t + p`, and the transposed weights at `(k, q)` are the weights at `(q, k)`.  The ten blocks tile the
  100000 rows — node `n` lies in block `n / 10000` —, so after the run the result array IS `y · wᵀ`.
-/
import proofs.«139990_j36799279793050_2_alg».proof.Proof.Gen.KernelIdeal.Value
import proofs.«139990_j36799279793050_2_alg».proof.Proof.Spec
import proofs.«139990_j36799279793050_2_alg».proof.Proof.BlockProduct
import proofs.«139990_j36799279793050_2_alg».proof.Proof.RegionArrays

noncomputable section

namespace Cert.KernelIdeal.WholeArray

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.GraphLinear Cert.KernelIdeal.RegionArrays

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the ten points: the feature block and the result block of point `t` are both block
    row `t`, block column 0; the weight block is always the whole array. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## The windows' blocks, read out of an arbitrary array

These are stated for ANY array in place of the region's input arrays, so that the arithmetic of block offsets is
settled once, apart from what the arrays hold. -/

/-- Row `p`, column `k` of the feature window's block at point `t` is row `n = 10000·t + p`, column `k` of the array. -/
theorem feature_block_read (t : Fin cfg0.N) (A : S100000x128.Idx → EReal) (p : Fin 10000) (k : Fin 128) (n : Fin 100000)
    (hn : n.val = t.val * 10000 + p.val) :
    (((cfg0.win 0).blk t).view.read (Elt Ideal) A : S10000x128.Idx → EReal) (ix2 p k) = A (ix2 n k) := by
  obtain ⟨e0, e1, -, -, -, -⟩ := block_indices t
  show A (((cfg0.win 0).blk t).view.emb (ix2 p k)) = A (ix2 n k)
  refine congrArg A (funext fun a => Fin.ext ?_)
  match a with
  | ⟨0, _⟩ => show win0_0.index t (0 : Fin 2) * 10000 + 1 * p.val = n.val; omega
  | ⟨1, _⟩ => show win0_0.index t (1 : Fin 2) * 128 + 1 * k.val = k.val; omega

/-- The weight window's block at any point is the whole array. -/
theorem weight_block_read (t : Fin cfg0.N) (B : S128x128.Idx → EReal) (k q : Fin 128) :
    (((cfg0.win 1).blk t).view.read (Elt Ideal) B : S128x128.Idx → EReal) (ix2 k q) = B (ix2 k q) := by
  obtain ⟨-, -, e2, e3, -, -⟩ := block_indices t
  show B (((cfg0.win 1).blk t).view.emb (ix2 k q)) = B (ix2 k q)
  refine congrArg B (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- What a point writes back, for ANY two input blocks `a`, `b` and ANY array `R` whose rows `10000·t + p` are the rows
    of the matrix product `a · b`: the stored block is the product, and the result window's block at point `t` is rows
    `10000·t … 10000·t + 9999`, so what is written back is block `t` of `R`. -/
theorem written_block (t : Fin cfg0.N) (a : Vec Ideal S10000x128 .bf16) (b : Vec Ideal S128x128 .bf16) (R : S100000x128.Idx → EReal)
    (h : ∀ (p : Fin 10000) (q : Fin 128) (n : Fin 100000), n.val = t.val * 10000 + p.val →
      ∑ k : Fin 128, a (ix2 p k) * b (ix2 k q) = R (ix2 n q)) :
    (cfg0.win 2).cut (grid0.coords t) (out0_2 a b) = ((cfg0.win 2).blk t).view.read (Elt Ideal) R := by
  unfold out0_2
  rw [View.canon_unit_zero zero_offsets]
  simp only [View.ld_unit_zero (S := S10000x128) zero_offsets, View.ld_unit_zero (S := S128x128) zero_offsets]
  obtain ⟨-, -, -, -, e4, e5⟩ := block_indices t
  have ht : t.val < 10 := lt_of_lt_of_eq (show t.val < grid0.N from t.isLt) N_0
  funext j
  obtain ⟨p, q, rfl⟩ : ∃ (p : Fin 10000) (q : Fin 128), j = ix2 p q := ⟨j 0, j 1, eq_ix2 j⟩
  have hp : p.val < 10000 := p.isLt
  show k0_pay1 (F := Ideal) a b (ix2 p q) = R (((cfg0.win 2).blk t).view.emb (ix2 p q))
  refine (BlockProduct.payload_apply a b p q).trans ?_
  refine (h p q ⟨t.val * 10000 + p.val, by omega⟩ rfl).trans ?_
  refine congrArg R (funext fun x => Fin.ext ?_)
  match x with
  | ⟨0, _⟩ => show t.val * 10000 + p.val = win0_2.index t (0 : Fin 2) * 10000 + 1 * p.val; omega
  | ⟨1, _⟩ => show q.val = win0_2.index t (1 : Fin 2) * 128 + 1 * q.val; omega

/-! ## The same at the region's input arrays -/

/-- The result of the dense layer on core `c`: the aggregated features times the transposed weights. -/
def result (c : Dev nD) : S100000x128.Idx → EReal :=
  timesTranspose (aggregated m c) (m ((c : Thread nD τ).loc main_arg4))

/-- Row `p`, column `k` of the feature block at point `t` is the aggregated features at node `n = 10000·t + p`. -/
theorem feature_block_apply (c : Dev nD) (t : Fin cfg0.N) (p : Fin 10000) (k : Fin 128) (n : Fin 100000)
    (hn : n.val = t.val * 10000 + p.val) :
    (iblk m c 0 t : S10000x128.Idx → EReal) (ix2 p k) = aggregated m c (ix2 n k) := by
  unfold iblk
  refine (feature_block_read t _ p k n hn).trans ?_
  exact congrFun (found_features m c) (ix2 n k)

/-- Row `k`, column `q` of the weight block at any point is the weights at row `q`, column `k`. -/
theorem weight_block_apply (c : Dev nD) (t : Fin cfg0.N) (k q : Fin 128) :
    (iblk m c 1 t : S128x128.Idx → EReal) (ix2 k q) = (m ((c : Thread nD τ).loc main_arg4) : S128x128.Idx → EReal) (ix2 q k) := by
  unfold iblk
  refine (weight_block_read t _ k q).trans ?_
  exact found_weights_apply m c k q

/-- What point `t` writes back is block `t` of the result. -/
theorem flushed_eq (c : Dev nD) (t : Fin cfg0.N) :
    (dats m 0 c).flushed 2 t = ((cfg0.win 2).blk t).view.read (Elt Ideal) (result m c) := by
  rw [flushed2]
  refine written_block t (iblk m c 0 t) (iblk m c 1 t) (result m c) fun p q n hn => ?_
  unfold result
  rw [timesTranspose_ix2]
  refine Finset.sum_congr rfl fun k _ => ?_
  rw [feature_block_apply m c t p k n hn, weight_block_apply m c t k q]

/-! ## The ten blocks tile the result array -/

/-- An index of the result array is in point `t`'s block iff each coordinate is in the block's range on its axis. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v16).slice (win0_2.rect t)).set ↔ _
  rw [View.set_slice_whole, Rect.mem_set_unit]
  exact Iff.rfl

/-- Every index of the result array is in some point's block: node `n` is in block `n / 10000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  have hlt : (i 0).val / 10000 < grid0.N := by rw [hN]; omega
  obtain ⟨-, -, -, -, e4, e5⟩ := block_indices ⟨(i 0).val / 10000, hlt⟩
  refine ⟨⟨(i 0).val / 10000, hlt⟩, flush0_2 _, ?_⟩
  rw [mem_block]
  intro a
  match a with
  | ⟨0, _⟩ =>
    show win0_2.index ⟨(i 0).val / 10000, hlt⟩ (0 : Fin 2) * 10000 ≤ (i 0).val
      ∧ (i 0).val < win0_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, hlt⟩ (1 : Fin 2) * 128 ≤ (i 1).val
      ∧ (i 1).val < win0_2.index ⟨(i 0).val / 10000, hlt⟩ (1 : Fin 2) * 128 + 128
    rw [e5]
    omega

/-- After the run the result array is the dense layer's result. -/
theorem final (c : Dev nD) : (dats m 0 c).arrAt 2 cfg0.N = result m c :=
  (dats m 0 c).arrAt_eq_of_cover 2 (result m c) (fun t _ => flushed_eq m c t) covered

/-- The kernel's run, read: every weakly fair execution terminates with the result array at the dense layer's
    result and the argument arrays unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.WholeArray

end
-- ==== Proof.ReferenceValue.lean ====
/-
  The reference's result, as the same function.

  The reference ends with one contraction of the aggregated features `y` (100000 × 128) with the weights `w`
  (128 × 128) over the SECOND axis of both: its entry at node `n`, output feature `o` is `∑ k, y[n, k] · w[o, k]`,
  which is `y · wᵀ` entry by entry.  Only the spelling of the two operand indices has to be identified.
-/
import proofs.«139990_j36799279793050_2_alg».proof.Proof.Gen.ReferenceIdeal.Read
import proofs.«139990_j36799279793050_2_alg».proof.Proof.Spec

noncomputable section

namespace Cert.ReferenceIdeal.DenseLayer

open Cert.ReferenceIdeal Cert.ReferenceIdeal.Gen Cert.ReferenceIdeal.Read Idealize.ShloMosaic
open Idealize.ShloMosaic.ValueIdx Cert.GraphLinear

/-- The reference's last stage is `y · wᵀ` of its aggregated features and the weights. -/
theorem result_eq (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x128, .f32⟩ : BufTy).Contents (Elt Ideal)) :
    val_main_v13 (F := Ideal) x0 x1 x2 x3 x4 = timesTranspose (val_main_v12 (F := Ideal) x0 x1 x2 x3) x4 := by
  funext i
  rw [val_main_v13_apply]
  unfold timesTranspose
  refine Finset.sum_congr rfl fun k _ => ?_
  have el : lidx_main_v13 i k = ix2 (n0 := 100000) (n1 := 128) (i 0) k :=
    funext fun a => Fin.ext (by match a with | ⟨0, _⟩ => rfl | ⟨1, _⟩ => rfl)
  have er : ridx_main_v13 i k = ix2 (n0 := 128) (n1 := 128) (i 1) k :=
    funext fun a => Fin.ext (by match a with | ⟨0, _⟩ => rfl | ⟨1, _⟩ => rfl)
  rw [el, er]

end Cert.ReferenceIdeal.DenseLayer

end
-- ==== Proof.lean ====
/-
  A graph layer: neighbour features are gathered along the edges, scaled by the edge values and added into their
  destination nodes (`y`, 100000 nodes × 128 features), and a dense layer `y · wᵀ` with a 128 × 128 weight array `w`
  follows.  The two programs compute `y` by the same host operations, and differ only in the dense layer: the kernel
  changes `y` and the transposed weights to a narrower float format and multiplies them block by block (ten blocks of
  10000 nodes) on the matrix unit into a zero accumulator; the reference contracts `y` with `w` over their second
  axes in one operation.

  Over the extended reals a change of float format is the identity, so both results are, entry by entry,
      out[n, o] = ∑ k, y[n, k] · w[o, k].
  The proof identifies each side with that sum (Proof/Spec.lean states it; Proof/WholeArray.lean is the kernel's
  side, from one block's product in Proof/BlockProduct.lean and the region's input arrays in Proof/RegionArrays.lean;
  Proof/ReferenceValue.lean is the reference's side).  The aggregated features `y` enter both sides as one and the same
  term and are never opened; no law of arithmetic beyond reindexing a finite sum is used, so the finiteness of the
  inputs is not needed.

  The three programs' runs (termination, no fault, the arguments unchanged) are the generated frames and the
  generated run of the reference; the idealized kernel rewrites nothing, so there is nothing to preserve.
-/
import proofs.«139990_j36799279793050_2_alg».proof.Defs
import proofs.«139990_j36799279793050_2_alg».proof.Proof.Gen.Kernel
import proofs.«139990_j36799279793050_2_alg».proof.Proof.Gen.Kernel.Skeleton
import proofs.«139990_j36799279793050_2_alg».proof.Proof.Gen.Kernel.Launch
import proofs.«139990_j36799279793050_2_alg».proof.Proof.Gen.Kernel.Points
import proofs.«139990_j36799279793050_2_alg».proof.Proof.Gen.Kernel.Frame
import proofs.«139990_j36799279793050_2_alg».proof.Proof.Gen.KernelIdeal
import proofs.«139990_j36799279793050_2_alg».proof.Proof.Gen.KernelIdeal.Skeleton
import proofs.«139990_j36799279793050_2_alg».proof.Proof.Gen.KernelIdeal.Launch
import proofs.«139990_j36799279793050_2_alg».proof.Proof.Gen.KernelIdeal.Points
import proofs.«139990_j36799279793050_2_alg».proof.Proof.Gen.KernelIdeal.Frame
import proofs.«139990_j36799279793050_2_alg».proof.Proof.Gen.ReferenceIdeal
import proofs.«139990_j36799279793050_2_alg».proof.Proof.Gen.Pre_finite_inputs
import proofs.«139990_j36799279793050_2_alg».proof.Proof.Gen.KernelIdeal.Value
import proofs.«139990_j36799279793050_2_alg».proof.Proof.Gen.ReferenceIdeal.Run
import proofs.«139990_j36799279793050_2_alg».proof.Proof.Gen.ReferenceIdeal.Read
import proofs.«139990_j36799279793050_2_alg».proof.Proof.WholeArray
import proofs.«139990_j36799279793050_2_alg».proof.Proof.ReferenceValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with `y · wᵀ` of the same aggregated
    features `y` and the same weights `w`. -/
theorem algebraic : Cert.algebraic_KernelIdeal_ReferenceIdeal := by
  intro m ρ m' ρ' _ hagree
  refine ⟨fun c => Cert.KernelIdeal.WholeArray.result m c, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.DenseLayer.result_eq,
    (hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
